-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096 .f32) (main_arg5 : FVec F S4096x1024 .f32) (main_arg6 : FVec F S4096 .f32) (main_arg7 : FVec F S1024 .f32) (main_arg8 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096 .f32) (main_arg5 : FVec F S4096x1024 .f32) (main_arg6 : FVec F S4096 .f32) (main_arg7 : FVec F S1024 .f32) (main_arg8 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_v13 main_v16
-- ==== Kernel.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S1024x4096, .bf16⟩
  | .hbm, ⟨11, _⟩ => ⟨S1024x4096, .f32⟩
  | .hbm, ⟨12, _⟩ => ⟨S1024x4096, .bf16⟩
  | .hbm, ⟨13, _⟩ => ⟨S4096, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x1024, .f32⟩
  | .local _ .vmem, ⟨10, _⟩ => ⟨S1x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  reduces_S128x1024_S128 : S128x1024.Reduces [1] S128
  shapeCasts_S128_S128x1 : S128.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S4096x1024.size a
  hwx0_1 : ∀ i : grid0.Coords, EltTy.bits .f32 = 32 ∨ (Rect.block (s := S4096x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S4096x1024.size a
  hwx0_8 : ∀ i : grid0.Coords, EltTy.bits .f32 = 32 ∨ (Rect.block (s := S4096x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S4096x1024.size a
  hwx0_9 : ∀ i : grid0.Coords, EltTy.bits .f32 = 32 ∨ (Rect.block (s := S4096x1024) S128x1024.size (cc0_transform_9 i) (hinb0_9 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩
abbrev S4096x1 : Shape := ⟨2, ![4096, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096, .f32⟩
  | .hbm, ⟨5, _⟩ => ⟨S4096x1024, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x4096, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S1024x4096, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S1x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The LSTM cell with a layer-normalised cell state, as one function of the nine argument arrays, on the extended reals.

  For a batch row `b` the 4096 gate pre-activations are
      p n = Σ_k x[b,k]·W_ih[n,k] + Σ_k h[b,k]·W_hh[n,k] + (b_ih[n] + b_hh[n]),
  cut into four runs of 1024 columns: input gate (columns 0…1023), forget gate (1024…2047), output gate (2048…3071) and
  candidate (3072…4095). The new cell row is  c'[j] = c[b,j]·σ(p[1024+j]) + σ(p[j])·tanh(p[3072+j]),  its mean
  μ = (Σ_j c'[j]) / 1024, its variance v = (Σ_j (c'[j] − μ)²) / 1024, and the two results are
      c_out[b,j] = (c'[j] − μ)·rsqrt(v + ε)·γ[j] + β[j],      h_out[b,j] = σ(p[2048+j])·tanh(c_out[b,j]).
  Everything is row-wise: row `b` of either result depends on row `b` of x, h, c and on the whole of the weights.

  The one algebraic law of this certificate is `preR_eq_preK`: the pre-activation written with the two biases added one
  after the other, ((xW + b_ih) + hW) + b_hh, is the one written with the biases added first, (xW + hW) + (b_ih + b_hh).
  Addition of extended reals is commutative and associative (also at the infinities), so no finiteness is used.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- Column `o + j` of the 4096 gate columns: column `j` of the gate whose run starts at `o`. -/
def gcol (o : Nat) (ho : o ≤ 3072) (j : Fin 1024) : Fin 4096 := ⟨o + j.val, by have := j.isLt; omega⟩

/-- The divisor of both means and the variance's epsilon, as the words both programs carry. -/
abbrev nCols : EReal := Ideal.ofBits .f32 0x44800000#32
abbrev eps : EReal := Ideal.ofBits .f32 0x3727C5AC#32

/-- The word of `1.0` denotes the extended real `1` (sign 0, biased exponent 127, fraction 0). -/
theorem one_word : Ideal.ofBits .f32 0x3F800000#32 = 1 := by
  simp [Ideal.ofBits, Ideal.ieee]
  rw [← EReal.coe_mul]
  norm_num

/-- So the logistic function is the quotient spelt with that word: `σ(x) = 1.0 / (1.0 + e^(−x))`. -/
theorem logistic_words (x : EReal) :
    Ideal.div (Ideal.ofBits .f32 0x3F800000#32) (Ideal.ofBits .f32 0x3F800000#32 + Ideal.exp (-x)) = Ideal.logistic x := by
  rw [one_word]; rfl

/-- The pre-activations of one row, the biases added to each other first. -/
def preK (xr hr : Fin 1024 → EReal) (wih whh : Fin 4096 → Fin 1024 → EReal) (bih bhh : Fin 4096 → EReal) (n : Fin 4096) : EReal :=
  (∑ k : Fin 1024, xr k * wih n k) + (∑ k : Fin 1024, hr k * whh n k) + (bih n + bhh n)

/-- The same with the biases added one after the other, each after its own product. -/
def preR (xr hr : Fin 1024 → EReal) (wih whh : Fin 4096 → Fin 1024 → EReal) (bih bhh : Fin 4096 → EReal) (n : Fin 4096) : EReal :=
  (∑ k : Fin 1024, xr k * wih n k) + bih n + (∑ k : Fin 1024, hr k * whh n k) + bhh n

/-- The two groupings of the four summands agree on every extended real. -/
theorem preR_eq_preK (xr hr : Fin 1024 → EReal) (wih whh : Fin 4096 → Fin 1024 → EReal) (bih bhh : Fin 4096 → EReal) :
    preR xr hr wih whh bih bhh = preK xr hr wih whh bih bhh := by
  funext n
  unfold preR preK
  rw [add_assoc, add_add_add_comm]

/-- The new cell row before normalisation: forget gate times the old cell plus input gate times candidate. -/
def cellRow (p : Fin 4096 → EReal) (cr : Fin 1024 → EReal) (j : Fin 1024) : EReal :=
  cr j * Ideal.logistic (p (gcol 1024 (by omega) j)) + Ideal.logistic (p (gcol 0 (by omega) j)) * Ideal.tanh (p (gcol 3072 (by omega) j))

/-- A row's mean: its sum divided by the number of columns. -/
def rowMean (v : Fin 1024 → EReal) : EReal := Ideal.div (∑ k : Fin 1024, v k) nCols

/-- A row's entry minus the row's mean. -/
def centred (v : Fin 1024 → EReal) (j : Fin 1024) : EReal := v j - rowMean v

/-- A row's variance: the mean of the squared centred entries. -/
def rowVar (v : Fin 1024 → EReal) : EReal := rowMean fun k => centred v k * centred v k

/-- Layer normalisation of a row with scale `γ` and shift `β`. -/
def normRow (v γ β : Fin 1024 → EReal) (j : Fin 1024) : EReal :=
  centred v j * Ideal.rsqrt (rowVar v + eps) * γ j + β j

/-- The normalised new cell row. -/
def outCRow (p : Fin 4096 → EReal) (cr γ β : Fin 1024 → EReal) : Fin 1024 → EReal := normRow (cellRow p cr) γ β

/-- The new hidden row: output gate times tanh of the normalised cell. -/
def outHRow (p : Fin 4096 → EReal) (cr γ β : Fin 1024 → EReal) (j : Fin 1024) : EReal :=
  Ideal.logistic (p (gcol 2048 (by omega) j)) * Ideal.tanh (outCRow p cr γ β j)

/-! ## The whole arrays -/

abbrev Mat : Type := (⟨2, ![4096, 1024]⟩ : Shape).Idx → EReal
abbrev GVec : Type := (⟨1, ![4096]⟩ : Shape).Idx → EReal
abbrev HVec : Type := (⟨1, ![1024]⟩ : Shape).Idx → EReal

/-- Row `b`'s pre-activations from the argument arrays. -/
def pre (x h wih : Mat) (bih : GVec) (whh : Mat) (bhh : GVec) (b : Fin 4096) : Fin 4096 → EReal :=
  preK (fun k => x (ix2 b k)) (fun k => h (ix2 b k)) (fun n k => wih (ix2 n k)) (fun n k => whh (ix2 n k))
    (fun n => bih (ix1 n)) (fun n => bhh (ix1 n))

/-- Row `b` of the new cell state before normalisation. -/
def cellAt (x h c wih : Mat) (bih : GVec) (whh : Mat) (bhh : GVec) (b : Fin 4096) : Fin 1024 → EReal :=
  cellRow (pre x h wih bih whh bhh b) (fun k => c (ix2 b k))

/-- The normalised new cell state, entry `(b, j)`. -/
def cellOut (x h c wih : Mat) (bih : GVec) (whh : Mat) (bhh : GVec) (γ β : HVec) (b : Fin 4096) (j : Fin 1024) : EReal :=
  outCRow (pre x h wih bih whh bhh b) (fun k => c (ix2 b k)) (fun k => γ (ix1 k)) (fun k => β (ix1 k)) j

/-- The new hidden state, entry `(b, j)`. -/
def hiddenOut (x h c wih : Mat) (bih : GVec) (whh : Mat) (bhh : GVec) (γ β : HVec) (b : Fin 4096) (j : Fin 1024) : EReal :=
  outHRow (pre x h wih bih whh bhh b) (fun k => c (ix2 b k)) (fun k => γ (ix1 k)) (fun k => β (ix1 k)) j

/-- The two results as arrays. -/
def Gc (x h c wih : Mat) (bih : GVec) (whh : Mat) (bhh : GVec) (γ β : HVec) : Mat :=
  fun i => cellOut x h c wih bih whh bhh γ β (i 0) (i 1)
def Gh (x h c wih : Mat) (bih : GVec) (whh : Mat) (bhh : GVec) (γ β : HVec) : Mat :=
  fun i => hiddenOut x h c wih bih whh bhh γ β (i 0) (i 1)

end Cert.Lstm

end
-- ==== Proof.RefValue.lean ====
/-
  The reference, read index by index, is the specification.

  The reference computes on whole arrays: two matrix products with the transposed weights, each followed by its bias
  broadcast over the rows, four column slices of the sum, the logistic function spelt 1.0 / (1.0 + e^(−x)) on three of
  them and tanh on the fourth, then row sums, means and the normalisation. Read at entry (b, j) every stage depends
  only on row b, and the stages compose to `Cert.Lstm.hiddenOut` / `Cert.Lstm.cellOut` once the pre-activation's four
  summands are regrouped (`preR_eq_preK`).
-/
import proofs.«103422_j12713103196909_2_alg».proof.Proof.Gen.ReferenceIdeal.Read
import proofs.«103422_j12713103196909_2_alg».proof.Proof.Spec

noncomputable section

open scoped BigOperators

namespace Cert.Lstm.Ref

open Idealize.ShloMosaic Idealize.ShloMosaic.ValueIdx Cert.ReferenceIdeal Cert.ReferenceIdeal.Read Cert.Lstm

variable (x0 x1 x2 x3 : (⟨S4096x1024, .f32⟩ : BufTy).Contents (Elt Ideal)) (x4 : (⟨S4096, .f32⟩ : BufTy).Contents (Elt Ideal))
  (x5 : (⟨S4096x1024, .f32⟩ : BufTy).Contents (Elt Ideal)) (x6 : (⟨S4096, .f32⟩ : BufTy).Contents (Elt Ideal))
  (x7 x8 : (⟨S1024, .f32⟩ : BufTy).Contents (Elt Ideal))

/-! ## Where each stage reads its operand -/

/-- Entry (b, n) of x·W_ihᵀ sums x[b,k] … -/
theorem lidx_v1 (b n : Fin 4096) (k : Fin 1024) : lidx_main_v1 (ix2 b n) k = ix2 b k :=
  funext fun a => by match a with | ⟨0, _⟩ => rfl | ⟨1, _⟩ => rfl
/-- … against the transposed weight at (k, n), which is W_ih[n,k]. -/
theorem ridx_v1 (b n : Fin 4096) (k : Fin 1024) : idx_main_v0 (ridx_main_v1 (ix2 b n) k) = ix2 n k :=
  funext fun a => by match a with | ⟨0, _⟩ => rfl | ⟨1, _⟩ => rfl
theorem lidx_v6 (b n : Fin 4096) (k : Fin 1024) : lidx_main_v6 (ix2 b n) k = ix2 b k :=
  funext fun a => by match a with | ⟨0, _⟩ => rfl | ⟨1, _⟩ => rfl
theorem ridx_v6 (b n : Fin 4096) (k : Fin 1024) : idx_main_v5 (ridx_main_v6 (ix2 b n) k) = ix2 n k :=
  funext fun a => by match a with | ⟨0, _⟩ => rfl | ⟨1, _⟩ => rfl
/-- A bias broadcast over the rows reads its column. -/
theorem bidx_v3 (b n : Fin 4096) : idx_main_v2 (idx_main_v3 (ix2 b n)) = ix1 n :=
  funext fun a => by match a with | ⟨0, _⟩ => rfl
theorem bidx_v9 (b n : Fin 4096) : idx_main_v8 (idx_main_v9 (ix2 b n)) = ix1 n :=
  funext fun a => by match a with | ⟨0, _⟩ => rfl
/-- The four column slices. -/
theorem gidx_v11 (b : Fin 4096) (j : Fin 1024) : idx_main_v11 (ix2 b j) = ix2 b (gcol 0 (by omega) j) :=
  funext fun a => by
    match a with
    | ⟨0, _⟩ => rfl
    | ⟨1, _⟩ => exact Fin.ext (Nat.zero_add _).symm
theorem gidx_v18 (b : Fin 4096) (j : Fin 1024) : idx_main_v18 (ix2 b j) = ix2 b (gcol 1024 (by omega) j) :=
  funext fun a => by match a with | ⟨0, _⟩ => rfl | ⟨1, _⟩ => rfl
theorem gidx_v25 (b : Fin 4096) (j : Fin 1024) : idx_main_v25 (ix2 b j) = ix2 b (gcol 2048 (by omega) j) :=
  funext fun a => by match a with | ⟨0, _⟩ => rfl | ⟨1, _⟩ => rfl
theorem gidx_v32 (b : Fin 4096) (j : Fin 1024) : idx_main_v32 (ix2 b j) = ix2 b (gcol 3072 (by omega) j) :=
  funext fun a => by match a with | ⟨0, _⟩ => rfl | ⟨1, _⟩ => rfl
/-- A row sum at row b runs over (b, k); a keepdims column at (b, ·) reads row b. -/
theorem sidx_v37 (b : Fin 4096) (k : Fin 1024) : idx_main_v37 (ix1 b) k = ix2 b k :=
  funext fun a => by match a with | ⟨0, _⟩ => rfl | ⟨1, _⟩ => rfl
theorem sidx_v44 (b : Fin 4096) (k : Fin 1024) : idx_main_v44 (ix1 b) k = ix2 b k :=
  funext fun a => by match a with | ⟨0, _⟩ => rfl | ⟨1, _⟩ => rfl
theorem cidx_v38 (b : Fin 4096) (u : Fin 1) : idx_main_v38 (ix2 b u) = ix1 b :=
  funext fun a => by match a with | ⟨0, _⟩ => rfl
theorem cidx_v45 (b : Fin 4096) (u : Fin 1) : idx_main_v45 (ix2 b u) = ix1 b :=
  funext fun a => by match a with | ⟨0, _⟩ => rfl
theorem cidx_v41 (b : Fin 4096) (j : Fin 1024) : idx_main_v41 (ix2 b j) = ix2 b (0 : Fin 1) :=
  funext fun a => by match a with | ⟨0, _⟩ => rfl | ⟨1, _⟩ => rfl
theorem cidx_v48 (b : Fin 4096) (j : Fin 1024) : idx_main_v48 (ix2 b j) = ix2 b (0 : Fin 1) :=
  funext fun a => by match a with | ⟨0, _⟩ => rfl | ⟨1, _⟩ => rfl
theorem cidx_v53 (b : Fin 4096) (j : Fin 1024) : idx_main_v53 (ix2 b j) = ix2 b (0 : Fin 1) :=
  funext fun a => by match a with | ⟨0, _⟩ => rfl | ⟨1, _⟩ => rfl
/-- The scale and the shift broadcast over the rows read their column. -/
theorem pidx_v56 (b : Fin 4096) (j : Fin 1024) : idx_main_v55 (idx_main_v56 (ix2 b j)) = ix1 j :=
  funext fun a => by match a with | ⟨0, _⟩ => rfl
theorem pidx_v59 (b : Fin 4096) (j : Fin 1024) : idx_main_v58 (idx_main_v59 (ix2 b j)) = ix1 j :=
  funext fun a => by match a with | ⟨0, _⟩ => rfl

/-! ## The stages -/

/-- The gate pre-activations: ((x·W_ihᵀ + b_ih) + h·W_hhᵀ) + b_hh at (b, n), regrouped. -/
theorem pre_apply (b n : Fin 4096) :
    val_main_v10 (F := Ideal) x0 x1 x3 x4 x5 x6 (ix2 b n) = pre x0 x1 x3 x4 x5 x6 b n := by
  rw [val_main_v10_apply, val_main_v7_apply, val_main_v4_apply, val_main_v1_apply, val_main_v6_apply,
    val_main_v3_apply, val_main_v2_apply, val_main_v9_apply, val_main_v8_apply]
  simp only [val_main_v0_apply, val_main_v5_apply, lidx_v1, ridx_v1, lidx_v6, ridx_v6, bidx_v3, bidx_v9]
  unfold pre
  rw [← preR_eq_preK]
  rfl

/-- The input gate: the logistic function of columns 0 … 1023. -/
theorem igate_apply (b : Fin 4096) (j : Fin 1024) :
    val_main_v17 (F := Ideal) x0 x1 x3 x4 x5 x6 (ix2 b j) = Ideal.logistic (pre x0 x1 x3 x4 x5 x6 b (gcol 0 (by omega) j)) := by
  rw [val_main_v17_apply, val_main_v16_apply, val_main_cst_0_apply, val_main_v15_apply, val_main_v14_apply,
    val_main_cst_apply, val_main_v13_apply, val_main_v12_apply, val_main_v11_apply, gidx_v11, pre_apply]
  exact logistic_words _

/-- The forget gate: columns 1024 … 2047. -/
theorem fgate_apply (b : Fin 4096) (j : Fin 1024) :
    val_main_v24 (F := Ideal) x0 x1 x3 x4 x5 x6 (ix2 b j) = Ideal.logistic (pre x0 x1 x3 x4 x5 x6 b (gcol 1024 (by omega) j)) := by
  rw [val_main_v24_apply, val_main_v23_apply, val_main_cst_2_apply, val_main_v22_apply, val_main_v21_apply,
    val_main_cst_1_apply, val_main_v20_apply, val_main_v19_apply, val_main_v18_apply, gidx_v18, pre_apply]
  exact logistic_words _

/-- The output gate: columns 2048 … 3071. -/
theorem ogate_apply (b : Fin 4096) (j : Fin 1024) :
    val_main_v31 (F := Ideal) x0 x1 x3 x4 x5 x6 (ix2 b j) = Ideal.logistic (pre x0 x1 x3 x4 x5 x6 b (gcol 2048 (by omega) j)) := by
  rw [val_main_v31_apply, val_main_v30_apply, val_main_cst_4_apply, val_main_v29_apply, val_main_v28_apply,
    val_main_cst_3_apply, val_main_v27_apply, val_main_v26_apply, val_main_v25_apply, gidx_v25, pre_apply]
  exact logistic_words _

/-- The new cell row before normalisation. -/
theorem cell_apply (b : Fin 4096) (j : Fin 1024) :
    val_main_v36 (F := Ideal) x0 x1 x2 x3 x4 x5 x6 (ix2 b j) = cellAt x0 x1 x2 x3 x4 x5 x6 b j := by
  rw [val_main_v36_apply, val_main_v34_apply, val_main_v35_apply, val_main_v33_apply, val_main_v32_apply, gidx_v32,
    pre_apply, fgate_apply, igate_apply]
  rfl

/-- The row's mean, kept as a column. -/
theorem mean_apply (b : Fin 4096) (u : Fin 1) :
    val_main_v40 (F := Ideal) x0 x1 x2 x3 x4 x5 x6 (ix2 b u) = rowMean (cellAt x0 x1 x2 x3 x4 x5 x6 b) := by
  rw [val_main_v40_apply, val_main_v39_apply, val_main_cst_6_apply, val_main_v38_apply, cidx_v38, val_main_v37_apply,
    val_main_cst_5_apply]
  simp only [sidx_v37, cell_apply, Ideal.ofBits_def, Ideal.ofBits_zero_f32, zero_add]
  rfl

/-- The centred entry, as the variance squares it … -/
theorem centred_apply (b : Fin 4096) (j : Fin 1024) :
    val_main_v42 (F := Ideal) x0 x1 x2 x3 x4 x5 x6 (ix2 b j) = centred (cellAt x0 x1 x2 x3 x4 x5 x6 b) j := by
  rw [val_main_v42_apply, val_main_v41_apply, cidx_v41, mean_apply, cell_apply]
  rfl

/-- … and as the normalisation scales it (the reference subtracts the mean a second time). -/
theorem centred_apply' (b : Fin 4096) (j : Fin 1024) :
    val_main_v49 (F := Ideal) x0 x1 x2 x3 x4 x5 x6 (ix2 b j) = centred (cellAt x0 x1 x2 x3 x4 x5 x6 b) j := by
  rw [val_main_v49_apply, val_main_v48_apply, cidx_v48, mean_apply, cell_apply]
  rfl

/-- The row's variance, kept as a column. -/
theorem var_apply (b : Fin 4096) (u : Fin 1) :
    val_main_v47 (F := Ideal) x0 x1 x2 x3 x4 x5 x6 (ix2 b u) = rowVar (cellAt x0 x1 x2 x3 x4 x5 x6 b) := by
  rw [val_main_v47_apply, val_main_v46_apply, val_main_cst_8_apply, val_main_v45_apply, cidx_v45, val_main_v44_apply,
    val_main_cst_7_apply]
  simp only [sidx_v44, val_main_v43_apply, centred_apply, Ideal.ofBits_def, Ideal.ofBits_zero_f32, zero_add]
  rfl

/-- The normalised cell state: the reference's second result. -/
theorem cellOut_apply (b : Fin 4096) (j : Fin 1024) :
    val_main_v60 (F := Ideal) x0 x1 x2 x3 x4 x5 x6 x7 x8 (ix2 b j) = cellOut x0 x1 x2 x3 x4 x5 x6 x7 x8 b j := by
  rw [val_main_v60_apply, val_main_v59_apply, val_main_v58_apply, pidx_v59, val_main_v57_apply, val_main_v56_apply,
    val_main_v55_apply, pidx_v56, val_main_v54_apply, val_main_v53_apply, cidx_v53, val_main_v52_apply, val_main_v51_apply,
    val_main_v50_apply, val_main_cst_9_apply, var_apply, centred_apply']
  rfl

/-- The hidden state: the reference's first result. -/
theorem hiddenOut_apply (b : Fin 4096) (j : Fin 1024) :
    val_main_v62 (F := Ideal) x0 x1 x2 x3 x4 x5 x6 x7 x8 (ix2 b j) = hiddenOut x0 x1 x2 x3 x4 x5 x6 x7 x8 b j := by
  rw [val_main_v62_apply, val_main_v61_apply, cellOut_apply, ogate_apply]
  rfl

/-! ## The two results as arrays -/

theorem result_c : val_main_v60 (F := Ideal) x0 x1 x2 x3 x4 x5 x6 x7 x8 = Gc x0 x1 x2 x3 x4 x5 x6 x7 x8 := by
  funext i
  obtain ⟨b, j, rfl⟩ : ∃ (b : Fin 4096) (j : Fin 1024), i = ix2 b j := ⟨i 0, i 1, eq_ix2 i⟩
  exact cellOut_apply x0 x1 x2 x3 x4 x5 x6 x7 x8 b j

theorem result_h : val_main_v62 (F := Ideal) x0 x1 x2 x3 x4 x5 x6 x7 x8 = Gh x0 x1 x2 x3 x4 x5 x6 x7 x8 := by
  funext i
  obtain ⟨b, j, rfl⟩ : ∃ (b : Fin 4096) (j : Fin 1024), i = ix2 b j := ⟨i 0, i 1, eq_ix2 i⟩
  exact hiddenOut_apply x0 x1 x2 x3 x4 x5 x6 x7 x8 b j

end Cert.Lstm.Ref

end
-- ==== Proof.BodyValue.lean ====
/-
  What the kernel body stores, entry by entry, as the row functions of the specification applied to the blocks it loads.

  The body loads a [128,1024] block of x, of h and of c, the two transposed weight matrices whole ([1024,4096]), the
  summed bias as a [1,4096] row and the scale and shift as [1,1024] rows. Entry (r, n) of the pre-activation block is
      Σ_k X[r,k]·Wx[k,n] + Σ_k H[r,k]·Wh[k,n] + B[0,n]
  (a change of float format is the identity on extended reals, and each matrix product into a zero accumulator is the
  plain sum over the contracted axis). The four gates are column slices of that block; a row sum over the columns kept
  as a [128,1] column and broadcast back reads row r; so entry (r, j) of either stored block is the specification's row
  function of row r of the loaded blocks.
-/
import proofs.«103422_j12713103196909_2_alg».proof.Proof.Gen.KernelIdeal.Skeleton
import proofs.«103422_j12713103196909_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lstm.Body

open Idealize.ShloMosaic Idealize.ShloMosaic.ValueIdx Cert.KernelIdeal Cert.KernelIdeal.Gen Cert.Lstm

/-! ## The operations that are not pointwise, read at an entry -/

/-- The result's row coordinate is the left operand's row coordinate. -/
theorem lhs_row (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide),
    dif_pos (show (0 : Fin S128x1024.rank) ∈ dot_S128x1024_S1024x4096_S128x4096_1_0_0_1_n_n.lhsNonContracting by decide)]
  rfl

/-- The result's column coordinate is the right operand's column coordinate. -/
theorem rhs_col (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide),
    dif_pos (show (1 : Fin S1024x4096.rank) ∈ dot_S128x1024_S1024x4096_S128x4096_1_0_0_1_n_n.rhsNonContracting by decide)]
  rfl

/-- A [128,1024]·[1024,4096] product into the zero accumulator, at (r, n): the sum over the 1024 contracted entries. -/
theorem product_apply (L : FVec Ideal S128x1024 .bf16) (R : FVec Ideal S1024x4096 .bf16) (r : Fin 128) (n : Fin 4096) :
    matmul dot_S128x1024_S1024x4096_S128x4096_1_0_0_1_n_n none L R (constant S128x4096 .f32 0x00000000#32) (ix2 r n)
      = ∑ k : Fin 1024, L (ix2 r k) * R (ix2 k n) := by
  simp only [matmul]
  rw [Ideal.matmul_constant_zero_apply,
    ← Equiv.sum_comp (contrEquiv1 dot_S128x1024_S1024x4096_S128x4096_1_0_0_1_n_n 1024 rfl rfl).symm]
  refine Finset.sum_congr rfl fun k _ => ?_
  have hk := contrEquiv1_symm_val dot_S128x1024_S1024x4096_S128x4096_1_0_0_1_n_n 1024 rfl rfl k
  have el : dot_S128x1024_S1024x4096_S128x4096_1_0_0_1_n_n.lhsIdx (ix2 r n)
      ((contrEquiv1 dot_S128x1024_S1024x4096_S128x4096_1_0_0_1_n_n 1024 rfl rfl).symm k) = ix2 r k :=
    funext fun a => Fin.ext (by
      match a with
      | ⟨0, _⟩ => exact lhs_row _ _
      | ⟨1, _⟩ => exact (dot_S128x1024_S1024x4096_S128x4096_1_0_0_1_n_n.lhsIdx_val_of_single rfl _ _).trans hk)
  have er : dot_S128x1024_S1024x4096_S128x4096_1_0_0_1_n_n.rhsIdx (ix2 r n)
      ((contrEquiv1 dot_S128x1024_S1024x4096_S128x4096_1_0_0_1_n_n 1024 rfl rfl).symm k) = ix2 k n :=
    funext fun a => Fin.ext (by
      match a with
      | ⟨0, _⟩ => exact (dot_S128x1024_S1024x4096_S128x4096_1_0_0_1_n_n.rhsIdx_val_of_single rfl _ _).trans hk
      | ⟨1, _⟩ => exact rhs_col _ _)
  rw [el, er]

/-- The sum over the columns of a [128,1024] block, at row r. -/
theorem rowsum_apply (src : FVec Ideal S128x1024 .f32) (r : Fin 128) :
    multiReduction .add [1] S128 src 0x00000000#32 reduces_S128x1024_S128 (.inl rfl) rfl (ix1 r)
      = ∑ k : Fin 1024, src (ix2 r k) := by
  refine (Ideal.multiReduction_add_single src 0x00000000#32 reduces_S128x1024_S128 (.inl rfl) rfl (ix1 r)).trans ?_
  refine Finset.sum_congr rfl fun k _ => congrArg src ?_
  funext a
  match a with
  | ⟨0, _⟩ => rfl
  | ⟨1, _⟩ => rfl

/-- A [128] vector kept as a [128,1] column reads its row. -/
theorem column_apply {α : Type} (v : S128.Idx → α) (h : S128.ShapeCasts S128x1) (r : Fin 128) (u : Fin 1) :
    shapeCast S128x1 v h (ix2 r u) = v (ix1 r) :=
  shapeCast_apply v h _ _ (by
    have hu : u.val = 0 := by omega
    rw [Shape.rowMajor_val_two, Shape.rowMajor_val_one]
    show r.val = r.val * 1 + u.val
    omega)

/-- A [128,1] column broadcast over 1024 columns reads its row. -/
theorem spread_apply {α : Type} (v : S128x1.Idx → α) (h : S128x1.Broadcasts S128x1024) (r : Fin 128) (j : Fin 1024) :
    broadcastTo S128x1024 v h (ix2 r j) = v (ix2 r (0 : Fin 1)) := by
  refine broadcastTo_apply v h (ix2 r j) (ix2 r (0 : Fin 1)) fun ax => ?_
  match ax with
  | ⟨0, _⟩ =>
    show r.val = if (128 : Nat) = 1 then 0 else r.val
    rw [if_neg (by decide)]
  | ⟨1, _⟩ =>
    show 0 = if (1 : Nat) = 1 then 0 else j.val
    rw [if_pos rfl]

/-! ## The body's values -/

variable (X0 X1 X2 : Vec Ideal S128x1024 .f32) (X3 X4 : Vec Ideal S1024x4096 .bf16) (X5 : Vec Ideal S1x4096 .f32)
  (X6 X7 : Vec Ideal S1x1024 .f32)

/-- The pre-activation block at (r, n). -/
theorem preact_apply (r : Fin 128) (n : Fin 4096) :
    k0_pay3 X0 X1 X3 X4 X5 (ix2 r n)
      = (∑ k : Fin 1024, X0 (ix2 r k) * X3 (ix2 k n)) + (∑ k : Fin 1024, X1 (ix2 r k) * X4 (ix2 k n)) + X5 (ix2 (0 : Fin 1) n) := by
  unfold k0_pay3
  simp only [addf_apply, shapeCast_self, product_apply, broadcastTo_1b_ab_apply, truncf_apply]

/-- Row r of the pre-activation block. -/
abbrev preRow (r : Fin 128) : Fin 4096 → EReal := fun n => k0_pay3 X0 X1 X3 X4 X5 (ix2 r n)
/-- Row r of the loaded block of the old cell state. -/
abbrev cRow (r : Fin 128) : Fin 1024 → EReal := fun k => X2 (ix2 r k)

/-- The new cell block before normalisation at (r, j). -/
theorem cell_apply (r : Fin 128) (j : Fin 1024) :
    k0_pay5 X0 X1 X3 X4 X5 X2 (ix2 r j) = cellRow (preRow X0 X1 X3 X4 X5 r) (cRow X2 r) j := by
  unfold k0_pay5
  show X2 (ix2 r j) * Ideal.logistic (extractStridedSlice S128x1024 ![0, 1024] (k0_pay3 X0 X1 X3 X4 X5) slices_S128x4096_o0_1024_S128x1024 (ix2 r j))
      + Ideal.logistic (extractStridedSlice S128x1024 ![0, 0] (k0_pay3 X0 X1 X3 X4 X5) slices_S128x4096_o0_0_S128x1024 (ix2 r j))
        * Ideal.tanh (extractStridedSlice S128x1024 ![0, 3072] (k0_pay3 X0 X1 X3 X4 X5) slices_S128x4096_o0_3072_S128x1024 (ix2 r j)) = _
  rw [slice2_axis1_apply 1024 _ _ r j (gcol 1024 (by omega) j) rfl, slice2_axis1_apply 0 _ _ r j (gcol 0 (by omega) j) rfl,
    slice2_axis1_apply 3072 _ _ r j (gcol 3072 (by omega) j) rfl]
  rfl

/-- The output gate at (r, j). -/
theorem ogate_apply (r : Fin 128) (j : Fin 1024) :
    k0_pay4 X0 X1 X3 X4 X5 (ix2 r j) = Ideal.logistic (preRow X0 X1 X3 X4 X5 r (gcol 2048 (by omega) j)) := by
  unfold k0_pay4
  show Ideal.logistic (extractStridedSlice S128x1024 ![0, 2048] (k0_pay3 X0 X1 X3 X4 X5) slices_S128x4096_o0_2048_S128x1024 (ix2 r j)) = _
  rw [slice2_axis1_apply 2048 _ _ r j (gcol 2048 (by omega) j) rfl]

/-- The row means, kept as a column. -/
theorem mean_apply (r : Fin 128) (u : Fin 1) :
    k0_pay6 X0 X1 X3 X4 X5 X2 (ix2 r u) = rowMean (cellRow (preRow X0 X1 X3 X4 X5 r) (cRow X2 r)) := by
  unfold k0_pay6
  show Ideal.div (shapeCast S128x1 (multiReduction .add [1] S128 (k0_pay5 X0 X1 X3 X4 X5 X2) 0x00000000#32 reduces_S128x1024_S128 (.inl rfl) rfl)
      shapeCasts_S128_S128x1 (ix2 r u)) (Ideal.ofBits .f32 0x44800000#32) = _
  rw [column_apply, rowsum_apply]
  simp only [cell_apply]
  rfl

/-- The centred block at (r, j). -/
theorem centred_apply (r : Fin 128) (j : Fin 1024) :
    k0_pay8 X0 X1 X3 X4 X5 X2 (ix2 r j) = centred (cellRow (preRow X0 X1 X3 X4 X5 r) (cRow X2 r)) j := by
  unfold k0_pay8
  show k0_pay5 X0 X1 X3 X4 X5 X2 (ix2 r j) - broadcastTo S128x1024 (k0_pay6 X0 X1 X3 X4 X5 X2) broadcasts_S128x1_S128x1024 (ix2 r j) = _
  rw [spread_apply, mean_apply, cell_apply]
  rfl

/-- The row variances, kept as a column. -/
theorem var_apply (r : Fin 128) (u : Fin 1) :
    k0_pay7 X0 X1 X3 X4 X5 X2 (ix2 r u) = rowVar (cellRow (preRow X0 X1 X3 X4 X5 r) (cRow X2 r)) := by
  have hc : ∀ k : Fin 1024,
      subf (k0_pay5 X0 X1 X3 X4 X5 X2) (broadcastTo S128x1024 (k0_pay6 X0 X1 X3 X4 X5 X2) broadcasts_S128x1_S128x1024) (ix2 r k)
        = centred (cellRow (preRow X0 X1 X3 X4 X5 r) (cRow X2 r)) k := fun k => centred_apply X0 X1 X2 X3 X4 X5 r k
  unfold k0_pay7
  show Ideal.div (shapeCast S128x1 (multiReduction .add [1] S128
      (mulf (subf (k0_pay5 X0 X1 X3 X4 X5 X2) (broadcastTo S128x1024 (k0_pay6 X0 X1 X3 X4 X5 X2) broadcasts_S128x1_S128x1024))
        (subf (k0_pay5 X0 X1 X3 X4 X5 X2) (broadcastTo S128x1024 (k0_pay6 X0 X1 X3 X4 X5 X2) broadcasts_S128x1_S128x1024)))
      0x00000000#32 reduces_S128x1024_S128 (.inl rfl) rfl) shapeCasts_S128_S128x1 (ix2 r u)) (Ideal.ofBits .f32 0x44800000#32) = _
  rw [column_apply, rowsum_apply]
  simp only [mulf_apply, hc]
  rfl

/-- Row r of the loaded scale and shift. -/
abbrev gRow : Fin 1024 → EReal := fun k => X6 (ix2 (0 : Fin 1) k)
abbrev bRow : Fin 1024 → EReal := fun k => X7 (ix2 (0 : Fin 1) k)

/-- The stored cell block at (r, j): the normalised new cell row. -/
theorem storedC_apply (r : Fin 128) (j : Fin 1024) :
    k0_pay1 (k0_pay7 X0 X1 X3 X4 X5 X2) (k0_pay8 X0 X1 X3 X4 X5 X2) (Scalar.ofBits .f32 0x3727C5AC#32) X6 X7 (ix2 r j)
      = outCRow (preRow X0 X1 X3 X4 X5 r) (cRow X2 r) (gRow X6) (bRow X7) j := by
  unfold k0_pay1
  show k0_pay8 X0 X1 X3 X4 X5 X2 (ix2 r j)
        * broadcastTo S128x1024 (rsqrt (addf (k0_pay7 X0 X1 X3 X4 X5 X2) (broadcast S128x1 (Scalar.ofBits .f32 0x3727C5AC#32)))) broadcasts_S128x1_S128x1024 (ix2 r j)
        * broadcastTo S128x1024 (shapeCast S1x1024 X6 shapeCasts_S1x1024_S1x1024) broadcasts_S1x1024_S128x1024 (ix2 r j)
      + broadcastTo S128x1024 (shapeCast S1x1024 X7 shapeCasts_S1x1024_S1x1024) broadcasts_S1x1024_S128x1024 (ix2 r j) = _
  rw [spread_apply, broadcastTo_1b_ab_apply, broadcastTo_1b_ab_apply, shapeCast_self, shapeCast_self, centred_apply]
  show _ * Ideal.rsqrt (k0_pay7 X0 X1 X3 X4 X5 X2 (ix2 r (0 : Fin 1)) + Ideal.ofBits .f32 0x3727C5AC#32) * _ + _ = _
  rw [var_apply]
  rfl

/-- The stored hidden block at (r, j): output gate times tanh of the normalised cell. -/
theorem storedH_apply (r : Fin 128) (j : Fin 1024) :
    k0_pay2 (k0_pay4 X0 X1 X3 X4 X5) (k0_pay7 X0 X1 X3 X4 X5 X2) (k0_pay8 X0 X1 X3 X4 X5 X2) (Scalar.ofBits .f32 0x3727C5AC#32) X6 X7 (ix2 r j)
      = outHRow (preRow X0 X1 X3 X4 X5 r) (cRow X2 r) (gRow X6) (bRow X7) j := by
  unfold k0_pay2
  show k0_pay4 X0 X1 X3 X4 X5 (ix2 r j)
      * Ideal.tanh (k0_pay1 (k0_pay7 X0 X1 X3 X4 X5 X2) (k0_pay8 X0 X1 X3 X4 X5 X2) (Scalar.ofBits .f32 0x3727C5AC#32) X6 X7 (ix2 r j)) = _
  rw [ogate_apply, storedC_apply]
  rfl

end Cert.Lstm.Body

end
-- ==== Proof.Blocks.lean ====
/-
  From the blocks to the arrays: after the run the two result arrays hold the specification.

  The grid has 32 points; point t stages rows 128·t … 128·t + 127 of x, h and c and writes back the same rows of the two
  results, while the weights, the summed bias, the scale and the shift are staged whole at every point. So entry (r, k) of
  the x block at point t is x[128·t + r, k]; entry (k, n) of a staged weight is the transposed weight, W[n, k]; the staged
  bias row at n is b_ih[n] + b_hh[n] (the host adds the two vectors before the call and views the sum as one row), and
  the scale and shift rows are γ and β viewed as one row. With the body's values at an entry this makes what point t
  writes back exactly rows 128·t … 128·t + 127 of the specification, and since every row b lies in the block of point
  b / 128, the 32 blocks cover both result arrays.
-/
import proofs.«103422_j12713103196909_2_alg».proof.Proof.Gen.KernelIdeal.Value
import proofs.«103422_j12713103196909_2_alg».proof.Proof.Spec
import proofs.«103422_j12713103196909_2_alg».proof.Proof.BodyValue
import Idealize.ShloMosaic.Lib.ValueLayout
import Idealize.ShloMosaic.Lib.StableHlo.Run
import Idealize.ShloMosaic.Lib.Pipeline.Value

noncomputable section

open scoped BigOperators

namespace Cert.Lstm.Blocks

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Value Cert.Lstm

variable (m : (ℓ : Loc nD τ sig) → Buf (Elt Ideal) ℓ) (ρ : Dev nD → PrngReg)

theorem hz : (![0, 0] : Fin 2 → Nat) = fun _ => 0 := funext fun a => by fin_cases a <;> rfl

/-- The entrywise sum of two vectors of 4096 entries. -/
def sumVec (a b : GVec) : GVec := fun q => a q + b q

/-- Which block each window stages at point t: block row t of x, h, c and of the two results, the one block of the rest. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The arrays the host writes before the call -/

/-- The staged input weight at (k, n) is W_ih[n, k]. -/
theorem wih_apply (c : Dev nD) (k : Fin 1024) (n : Fin 4096) :
    (V m c main_v1 : S1024x4096.Idx → EReal) (ix2 k n) = (m ((c : Thread nD τ).loc main_arg3) : S4096x1024.Idx → EReal) (ix2 n k) := by
  have e : (V m c main_v1 : S1024x4096.Idx → EReal)
      = fun i => transpose S1024x4096 [1, 0] (m ((c : Thread nD τ).loc main_arg3) : S4096x1024.Idx → EReal) transposes_S4096x1024_S1024x4096_1_0 i := by
    dsimp only [V, hostOps0]
    after_results
    rfl
  rw [e]
  exact transpose_ix2_apply _ _ k n

/-- The staged hidden weight at (k, n) is W_hh[n, k]. -/
theorem whh_apply (c : Dev nD) (k : Fin 1024) (n : Fin 4096) :
    (V m c main_v3 : S1024x4096.Idx → EReal) (ix2 k n) = (m ((c : Thread nD τ).loc main_arg5) : S4096x1024.Idx → EReal) (ix2 n k) := by
  have e : (V m c main_v3 : S1024x4096.Idx → EReal)
      = fun i => transpose S1024x4096 [1, 0] (m ((c : Thread nD τ).loc main_arg5) : S4096x1024.Idx → EReal) transposes_S4096x1024_S1024x4096_1_0 i := by
    dsimp only [V, hostOps0]
    after_results
    rfl
  rw [e]
  exact transpose_ix2_apply _ _ k n

/-- The staged bias row at n is b_ih[n] + b_hh[n]. -/
theorem bias_apply (c : Dev nD) (n : Fin 4096) :
    (V m c main_v5 : S1x4096.Idx → EReal) (ix2 (0 : Fin 1) n)
      = sumVec (m ((c : Thread nD τ).loc main_arg4)) (m ((c : Thread nD τ).loc main_arg6)) (ix1 n) := by
  have e : (V m c main_v5 : S1x4096.Idx → EReal)
      = fun i => shapeCast S1x4096 (sumVec (m ((c : Thread nD τ).loc main_arg4)) (m ((c : Thread nD τ).loc main_arg6))) shapeCasts_S4096_S1x4096 i := by
    dsimp only [V, hostOps0]
    after_results
    rfl
  rw [e]
  exact shapeCast_a_1a_apply _ _ (0 : Fin 1) n

/-- The staged scale row at k is γ[k]. -/
theorem gamma_apply (c : Dev nD) (k : Fin 1024) :
    (V m c main_v6 : S1x1024.Idx → EReal) (ix2 (0 : Fin 1) k) = (m ((c : Thread nD τ).loc main_arg7) : S1024.Idx → EReal) (ix1 k) := by
  have e : (V m c main_v6 : S1x1024.Idx → EReal)
      = fun i => shapeCast S1x1024 (m ((c : Thread nD τ).loc main_arg7) : S1024.Idx → EReal) shapeCasts_S1024_S1x1024 i := by
    dsimp only [V, hostOps0]
    after_results
    rfl
  rw [e]
  exact shapeCast_a_1a_apply _ _ (0 : Fin 1) k

/-- The staged shift row at k is β[k]. -/
theorem beta_apply (c : Dev nD) (k : Fin 1024) :
    (V m c main_v7 : S1x1024.Idx → EReal) (ix2 (0 : Fin 1) k) = (m ((c : Thread nD τ).loc main_arg8) : S1024.Idx → EReal) (ix1 k) := by
  have e : (V m c main_v7 : S1x1024.Idx → EReal)
      = fun i => shapeCast S1x1024 (m ((c : Thread nD τ).loc main_arg8) : S1024.Idx → EReal) shapeCasts_S1024_S1x1024 i := by
    dsimp only [V, hostOps0]
    after_results
    rfl
  rw [e]
  exact shapeCast_a_1a_apply _ _ (0 : Fin 1) k

/-! ## Each staged block read at an entry -/

/-- Entry (r, k) of the x block at point t is x[128·t + r, k]. -/
theorem x_read (c : Dev nD) (t : Fin cfg0.N) (r : Fin 128) (B : Fin 4096) (hB : B.val = t.val * 128 + r.val) (k : Fin 1024) :
    (iblk m c 0 t : Vec Ideal S128x1024 .f32) (ix2 r k) = (m ((c : Thread nD τ).loc main_arg0) : S4096x1024.Idx → EReal) (ix2 B k) := by
  obtain ⟨e0, e1, -⟩ := idx_facts t
  have h : (iblk m c 0 t : Vec Ideal S128x1024 .f32) (ix2 r k) = (V m c main_arg0 : S4096x1024.Idx → EReal) (ix2 B k) := by
    unfold iblk
    rw [View.read_apply]
    show V m c main_arg0 (((cfg0.win 0).blk t).view.emb (ix2 r k)) = V m c main_arg0 (ix2 B k)
    refine congrArg (V m c main_arg0) (funext fun a => Fin.ext ?_)
    match a with
    | ⟨0, _⟩ => show win0_0.index t (0 : Fin 2) * 128 + 1 * r.val = B.val; rw [e0, hB]; omega
    | ⟨1, _⟩ => show win0_0.index t (1 : Fin 2) * 1024 + 1 * k.val = k.val; rw [e1]; omega
  exact h.trans (congrFun (V_main_arg0 m c) (ix2 B k))

/-- Entry (r, k) of the h block at point t is h[128·t + r, k]. -/
theorem h_read (c : Dev nD) (t : Fin cfg0.N) (r : Fin 128) (B : Fin 4096) (hB : B.val = t.val * 128 + r.val) (k : Fin 1024) :
    (iblk m c 1 t : Vec Ideal S128x1024 .f32) (ix2 r k) = (m ((c : Thread nD τ).loc main_arg1) : S4096x1024.Idx → EReal) (ix2 B k) := by
  obtain ⟨-, -, e0, e1, -⟩ := idx_facts t
  have h : (iblk m c 1 t : Vec Ideal S128x1024 .f32) (ix2 r k) = (V m c main_arg1 : S4096x1024.Idx → EReal) (ix2 B k) := by
    unfold iblk
    rw [View.read_apply]
    show V m c main_arg1 (((cfg0.win 1).blk t).view.emb (ix2 r k)) = V m c main_arg1 (ix2 B k)
    refine congrArg (V m c main_arg1) (funext fun a => Fin.ext ?_)
    match a with
    | ⟨0, _⟩ => show win0_1.index t (0 : Fin 2) * 128 + 1 * r.val = B.val; rw [e0, hB]; omega
    | ⟨1, _⟩ => show win0_1.index t (1 : Fin 2) * 1024 + 1 * k.val = k.val; rw [e1]; omega
  exact h.trans (congrFun (V_main_arg1 m c) (ix2 B k))

/-- Entry (r, k) of the c block at point t is c[128·t + r, k]. -/
theorem c_read (c : Dev nD) (t : Fin cfg0.N) (r : Fin 128) (B : Fin 4096) (hB : B.val = t.val * 128 + r.val) (k : Fin 1024) :
    (iblk m c 2 t : Vec Ideal S128x1024 .f32) (ix2 r k) = (m ((c : Thread nD τ).loc main_arg2) : S4096x1024.Idx → EReal) (ix2 B k) := by
  obtain ⟨-, -, -, -, e0, e1, -⟩ := idx_facts t
  have h : (iblk m c 2 t : Vec Ideal S128x1024 .f32) (ix2 r k) = (V m c main_arg2 : S4096x1024.Idx → EReal) (ix2 B k) := by
    unfold iblk
    rw [View.read_apply]
    show V m c main_arg2 (((cfg0.win 2).blk t).view.emb (ix2 r k)) = V m c main_arg2 (ix2 B k)
    refine congrArg (V m c main_arg2) (funext fun a => Fin.ext ?_)
    match a with
    | ⟨0, _⟩ => show win0_2.index t (0 : Fin 2) * 128 + 1 * r.val = B.val; rw [e0, hB]; omega
    | ⟨1, _⟩ => show win0_2.index t (1 : Fin 2) * 1024 + 1 * k.val = k.val; rw [e1]; omega
  exact h.trans (congrFun (V_main_arg2 m c) (ix2 B k))

/-- The staged input weight is the whole transposed matrix at every point. -/
theorem wih_read (c : Dev nD) (t : Fin cfg0.N) (k : Fin 1024) (n : Fin 4096) :
    (iblk m c 3 t : Vec Ideal S1024x4096 .bf16) (ix2 k n) = (m ((c : Thread nD τ).loc main_arg3) : S4096x1024.Idx → EReal) (ix2 n k) := by
  obtain ⟨-, -, -, -, -, -, e0, e1, -⟩ := idx_facts t
  have h : (iblk m c 3 t : Vec Ideal S1024x4096 .bf16) (ix2 k n) = (V m c main_v1 : S1024x4096.Idx → EReal) (ix2 k n) := by
    unfold iblk
    rw [View.read_apply]
    show V m c main_v1 (((cfg0.win 3).blk t).view.emb (ix2 k n)) = V m c main_v1 (ix2 k n)
    refine congrArg (V m c main_v1) (funext fun a => Fin.ext ?_)
    match a with
    | ⟨0, _⟩ => show win0_3.index t (0 : Fin 2) * 1024 + 1 * k.val = k.val; rw [e0]; omega
    | ⟨1, _⟩ => show win0_3.index t (1 : Fin 2) * 4096 + 1 * n.val = n.val; rw [e1]; omega
  exact h.trans (wih_apply m c k n)

/-- So is the staged hidden weight. -/
theorem whh_read (c : Dev nD) (t : Fin cfg0.N) (k : Fin 1024) (n : Fin 4096) :
    (iblk m c 4 t : Vec Ideal S1024x4096 .bf16) (ix2 k n) = (m ((c : Thread nD τ).loc main_arg5) : S4096x1024.Idx → EReal) (ix2 n k) := by
  obtain ⟨-, -, -, -, -, -, -, -, e0, e1, -⟩ := idx_facts t
  have h : (iblk m c 4 t : Vec Ideal S1024x4096 .bf16) (ix2 k n) = (V m c main_v3 : S1024x4096.Idx → EReal) (ix2 k n) := by
    unfold iblk
    rw [View.read_apply]
    show V m c main_v3 (((cfg0.win 4).blk t).view.emb (ix2 k n)) = V m c main_v3 (ix2 k n)
    refine congrArg (V m c main_v3) (funext fun a => Fin.ext ?_)
    match a with
    | ⟨0, _⟩ => show win0_4.index t (0 : Fin 2) * 1024 + 1 * k.val = k.val; rw [e0]; omega
    | ⟨1, _⟩ => show win0_4.index t (1 : Fin 2) * 4096 + 1 * n.val = n.val; rw [e1]; omega
  exact h.trans (whh_apply m c k n)

/-- The staged bias row. -/
theorem bias_read (c : Dev nD) (t : Fin cfg0.N) (n : Fin 4096) :
    (iblk m c 5 t : Vec Ideal S1x4096 .f32) (ix2 (0 : Fin 1) n)
      = sumVec (m ((c : Thread nD τ).loc main_arg4)) (m ((c : Thread nD τ).loc main_arg6)) (ix1 n) := by
  obtain ⟨-, -, -, -, -, -, -, -, -, -, e0, e1, -⟩ := idx_facts t
  have h : (iblk m c 5 t : Vec Ideal S1x4096 .f32) (ix2 (0 : Fin 1) n) = (V m c main_v5 : S1x4096.Idx → EReal) (ix2 (0 : Fin 1) n) := by
    unfold iblk
    rw [View.read_apply]
    show V m c main_v5 (((cfg0.win 5).blk t).view.emb (ix2 (0 : Fin 1) n)) = V m c main_v5 (ix2 (0 : Fin 1) n)
    refine congrArg (V m c main_v5) (funext fun a => Fin.ext ?_)
    match a with
    | ⟨0, _⟩ => show win0_5.index t (0 : Fin 2) * 1 + 1 * 0 = 0; rw [e0]
    | ⟨1, _⟩ => show win0_5.index t (1 : Fin 2) * 4096 + 1 * n.val = n.val; rw [e1]; omega
  exact h.trans (bias_apply m c n)

/-- The staged scale row. -/
theorem gamma_read (c : Dev nD) (t : Fin cfg0.N) (k : Fin 1024) :
    (iblk m c 6 t : Vec Ideal S1x1024 .f32) (ix2 (0 : Fin 1) k) = (m ((c : Thread nD τ).loc main_arg7) : S1024.Idx → EReal) (ix1 k) := by
  obtain ⟨-, -, -, -, -, -, -, -, -, -, -, -, e0, e1, -⟩ := idx_facts t
  have h : (iblk m c 6 t : Vec Ideal S1x1024 .f32) (ix2 (0 : Fin 1) k) = (V m c main_v6 : S1x1024.Idx → EReal) (ix2 (0 : Fin 1) k) := by
    unfold iblk
    rw [View.read_apply]
    show V m c main_v6 (((cfg0.win 6).blk t).view.emb (ix2 (0 : Fin 1) k)) = V m c main_v6 (ix2 (0 : Fin 1) k)
    refine congrArg (V m c main_v6) (funext fun a => Fin.ext ?_)
    match a with
    | ⟨0, _⟩ => show win0_6.index t (0 : Fin 2) * 1 + 1 * 0 = 0; rw [e0]
    | ⟨1, _⟩ => show win0_6.index t (1 : Fin 2) * 1024 + 1 * k.val = k.val; rw [e1]; omega
  exact h.trans (gamma_apply m c k)

/-- The staged shift row. -/
theorem beta_read (c : Dev nD) (t : Fin cfg0.N) (k : Fin 1024) :
    (iblk m c 7 t : Vec Ideal S1x1024 .f32) (ix2 (0 : Fin 1) k) = (m ((c : Thread nD τ).loc main_arg8) : S1024.Idx → EReal) (ix1 k) := by
  obtain ⟨-, -, -, -, -, -, -, -, -, -, -, -, -, -, e0, e1, -⟩ := idx_facts t
  have h : (iblk m c 7 t : Vec Ideal S1x1024 .f32) (ix2 (0 : Fin 1) k) = (V m c main_v7 : S1x1024.Idx → EReal) (ix2 (0 : Fin 1) k) := by
    unfold iblk
    rw [View.read_apply]
    show V m c main_v7 (((cfg0.win 7).blk t).view.emb (ix2 (0 : Fin 1) k)) = V m c main_v7 (ix2 (0 : Fin 1) k)
    refine congrArg (V m c main_v7) (funext fun a => Fin.ext ?_)
    match a with
    | ⟨0, _⟩ => show win0_7.index t (0 : Fin 2) * 1 + 1 * 0 = 0; rw [e0]
    | ⟨1, _⟩ => show win0_7.index t (1 : Fin 2) * 1024 + 1 * k.val = k.val; rw [e1]; omega
  exact h.trans (beta_apply m c k)

/-! ## The rows the body works on at point t are rows of the arguments -/

/-- Row r of the pre-activation block at point t is row 128·t + r of the specification's pre-activations. -/
theorem pre_rows (c : Dev nD) (t : Fin cfg0.N) (r : Fin 128) (B : Fin 4096) (hB : B.val = t.val * 128 + r.val) :
    Body.preRow (iblk m c 0 t) (iblk m c 1 t) (iblk m c 3 t) (iblk m c 4 t) (iblk m c 5 t) r = pre (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) B := by
  funext n
  refine (Body.preact_apply (iblk m c 0 t) (iblk m c 1 t) (iblk m c 3 t) (iblk m c 4 t) (iblk m c 5 t) r n).trans ?_
  simp only [x_read m c t r B hB, h_read m c t r B hB, wih_read m c t, whh_read m c t, bias_read m c t]
  rfl

theorem c_rows (c : Dev nD) (t : Fin cfg0.N) (r : Fin 128) (B : Fin 4096) (hB : B.val = t.val * 128 + r.val) :
    Body.cRow (iblk m c 2 t) r = fun k => (m ((c : Thread nD τ).loc main_arg2) : S4096x1024.Idx → EReal) (ix2 B k) :=
  funext fun k => c_read m c t r B hB k

theorem g_rows (c : Dev nD) (t : Fin cfg0.N) :
    Body.gRow (iblk m c 6 t) = fun k => (m ((c : Thread nD τ).loc main_arg7) : S1024.Idx → EReal) (ix1 k) :=
  funext fun k => gamma_read m c t k

theorem b_rows (c : Dev nD) (t : Fin cfg0.N) :
    Body.bRow (iblk m c 7 t) = fun k => (m ((c : Thread nD τ).loc main_arg8) : S1024.Idx → EReal) (ix1 k) :=
  funext fun k => beta_read m c t k

/-! ## What each point writes back -/

/-- Entry (r, j) of the cell result's block at point t sits at (128·t + r, j) of the array. -/
theorem emb_c (t : Fin cfg0.N) (r : Fin 128) (j : Fin 1024) (B : Fin 4096) (hB : B.val = t.val * 128 + r.val) :
    (((cfg0.win 9).blk t).view.emb (ix2 r j) : S4096x1024.Idx) = ix2 B j := by
  obtain ⟨-, -, -, -, -, -, -, -, -, -, -, -, -, -, -, -, -, -, e0, e1⟩ := idx_facts t
  funext a
  apply Fin.ext
  match a with
  | ⟨0, _⟩ => show win0_9.index t (0 : Fin 2) * 128 + 1 * r.val = B.val; rw [e0, hB]; omega
  | ⟨1, _⟩ => show win0_9.index t (1 : Fin 2) * 1024 + 1 * j.val = j.val; rw [e1]; omega

/-- The same for the hidden result. -/
theorem emb_h (t : Fin cfg0.N) (r : Fin 128) (j : Fin 1024) (B : Fin 4096) (hB : B.val = t.val * 128 + r.val) :
    (((cfg0.win 8).blk t).view.emb (ix2 r j) : S4096x1024.Idx) = ix2 B j := by
  obtain ⟨-, -, -, -, -, -, -, -, -, -, -, -, -, -, -, -, e0, e1, -⟩ := idx_facts t
  funext a
  apply Fin.ext
  match a with
  | ⟨0, _⟩ => show win0_8.index t (0 : Fin 2) * 128 + 1 * r.val = B.val; rw [e0, hB]; omega
  | ⟨1, _⟩ => show win0_8.index t (1 : Fin 2) * 1024 + 1 * j.val = j.val; rw [e1]; omega

/-- Point t writes back block t of the normalised cell state. -/
theorem flushedC_eq (c : Dev nD) (t : Fin cfg0.N) :
    (dats m 0 c).flushed 9 t = ((cfg0.win 9).blk t).view.read (Elt Ideal) (Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have hN : grid0.N = 32 := N_0
  rw [flushed9]
  unfold out0_9
  rw [View.canon_unit_zero hz]
  simp only [View.ld_unit_zero (S := S128x1024) hz, View.ld_unit_zero (S := S1024x4096) hz, View.ld_unit_zero (S := S1x4096) hz,
    View.ld_unit_zero (S := S1x1024) hz]
  funext y
  obtain ⟨r, j, rfl⟩ : ∃ (r : Fin 128) (j : Fin 1024), y = ix2 r j := ⟨y 0, y 1, eq_ix2 y⟩
  have ht : t.val < 32 := hN ▸ t.isLt
  have hr : r.val < 128 := r.isLt
  show k0_pay1 (k0_pay7 (iblk m c 0 t) (iblk m c 1 t) (iblk m c 3 t) (iblk m c 4 t) (iblk m c 5 t) (iblk m c 2 t)) (k0_pay8 (iblk m c 0 t) (iblk m c 1 t) (iblk m c 3 t) (iblk m c 4 t) (iblk m c 5 t) (iblk m c 2 t)) (Scalar.ofBits .f32 0x3727C5AC#32) (iblk m c 6 t) (iblk m c 7 t) (ix2 r j)
      = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb (ix2 r j))
  rw [emb_c t r j ⟨t.val * 128 + r.val, by omega⟩ rfl]
  refine (Body.storedC_apply (iblk m c 0 t) (iblk m c 1 t) (iblk m c 2 t) (iblk m c 3 t) (iblk m c 4 t) (iblk m c 5 t) (iblk m c 6 t) (iblk m c 7 t) r j).trans ?_
  rw [pre_rows m c t r ⟨t.val * 128 + r.val, by omega⟩ rfl, c_rows m c t r ⟨t.val * 128 + r.val, by omega⟩ rfl, g_rows m c t, b_rows m c t]
  rfl

/-- Point t writes back block t of the hidden state. -/
theorem flushedH_eq (c : Dev nD) (t : Fin cfg0.N) :
    (dats m 0 c).flushed 8 t = ((cfg0.win 8).blk t).view.read (Elt Ideal) (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have hN : grid0.N = 32 := N_0
  rw [flushed8]
  unfold out0_8
  rw [View.canon_unit_zero hz]
  simp only [View.ld_unit_zero (S := S128x1024) hz, View.ld_unit_zero (S := S1024x4096) hz, View.ld_unit_zero (S := S1x4096) hz,
    View.ld_unit_zero (S := S1x1024) hz]
  funext y
  obtain ⟨r, j, rfl⟩ : ∃ (r : Fin 128) (j : Fin 1024), y = ix2 r j := ⟨y 0, y 1, eq_ix2 y⟩
  have ht : t.val < 32 := hN ▸ t.isLt
  have hr : r.val < 128 := r.isLt
  show k0_pay2 (k0_pay4 (iblk m c 0 t) (iblk m c 1 t) (iblk m c 3 t) (iblk m c 4 t) (iblk m c 5 t)) (k0_pay7 (iblk m c 0 t) (iblk m c 1 t) (iblk m c 3 t) (iblk m c 4 t) (iblk m c 5 t) (iblk m c 2 t)) (k0_pay8 (iblk m c 0 t) (iblk m c 1 t) (iblk m c 3 t) (iblk m c 4 t) (iblk m c 5 t) (iblk m c 2 t)) (Scalar.ofBits .f32 0x3727C5AC#32) (iblk m c 6 t) (iblk m c 7 t) (ix2 r j)
      = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 8).blk t).view.emb (ix2 r j))
  rw [emb_h t r j ⟨t.val * 128 + r.val, by omega⟩ rfl]
  refine (Body.storedH_apply (iblk m c 0 t) (iblk m c 1 t) (iblk m c 2 t) (iblk m c 3 t) (iblk m c 4 t) (iblk m c 5 t) (iblk m c 6 t) (iblk m c 7 t) r j).trans ?_
  rw [pre_rows m c t r ⟨t.val * 128 + r.val, by omega⟩ rfl, c_rows m c t r ⟨t.val * 128 + r.val, by omega⟩ rfl, g_rows m c t, b_rows m c t]
  rfl

/-! ## The blocks cover the arrays -/

theorem mem_blk9 (t : Fin cfg0.N) (i : S4096x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v8_1).slice (win0_9.rect t)).set ↔ _
  rw [View.set_slice_whole, Rect.mem_set_unit]
  exact Iff.rfl

theorem mem_blk8 (t : Fin cfg0.N) (i : S4096x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v8_0).slice (win0_8.rect t)).set ↔ _
  rw [View.set_slice_whole, Rect.mem_set_unit]
  exact Iff.rfl

/-- Row b of the cell result is in the block of point b / 128. -/
theorem cover9 (i : S4096x1024.Idx) : ∃ t : Fin cfg0.N, (cfg0.win 9).flush t = true ∧ i ∈ ((cfg0.win 9).blk t).view.set := by
  have hN : grid0.N = 32 := N_0
  have hi0 : (i 0).val < 4096 := (i 0).isLt
  have hi1 : (i 1).val < 1024 := (i 1).isLt
  have hlt : (i 0).val / 128 < grid0.N := by rw [hN]; omega
  refine ⟨⟨(i 0).val / 128, hlt⟩, flush0_9 _, ?_⟩
  obtain ⟨-, -, -, -, -, -, -, -, -, -, -, -, -, -, -, -, -, -, e0, e1⟩ := idx_facts ⟨(i 0).val / 128, hlt⟩
  rw [mem_blk9]
  intro a
  match a with
  | ⟨0, _⟩ =>
    show win0_9.index ⟨(i 0).val / 128, hlt⟩ (0 : Fin 2) * 128 ≤ (i 0).val ∧ (i 0).val < win0_9.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, hlt⟩ (1 : Fin 2) * 1024 ≤ (i 1).val ∧ (i 1).val < win0_9.index ⟨(i 0).val / 128, hlt⟩ (1 : Fin 2) * 1024 + 1024
    rw [e1]; omega

/-- Row b of the hidden result is in the block of point b / 128. -/
theorem cover8 (i : S4096x1024.Idx) : ∃ t : Fin cfg0.N, (cfg0.win 8).flush t = true ∧ i ∈ ((cfg0.win 8).blk t).view.set := by
  have hN : grid0.N = 32 := N_0
  have hi0 : (i 0).val < 4096 := (i 0).isLt
  have hi1 : (i 1).val < 1024 := (i 1).isLt
  have hlt : (i 0).val / 128 < grid0.N := by rw [hN]; omega
  refine ⟨⟨(i 0).val / 128, hlt⟩, flush0_8 _, ?_⟩
  obtain ⟨-, -, -, -, -, -, -, -, -, -, -, -, -, -, -, -, e0, e1, -⟩ := idx_facts ⟨(i 0).val / 128, hlt⟩
  rw [mem_blk8]
  intro a
  match a with
  | ⟨0, _⟩ =>
    show win0_8.index ⟨(i 0).val / 128, hlt⟩ (0 : Fin 2) * 128 ≤ (i 0).val ∧ (i 0).val < win0_8.index ⟨(i 0).val / 128, hlt⟩ (0 : Fin 2) * 128 + 128
    rw [e0]; show (i 0).val / 128 * 128 ≤ (i 0).val ∧ (i 0).val < (i 0).val / 128 * 128 + 128; omega
  | ⟨1, _⟩ =>
    show win0_8.index ⟨(i 0).val / 128, hlt⟩ (1 : Fin 2) * 1024 ≤ (i 1).val ∧ (i 1).val < win0_8.index ⟨(i 0).val / 128, hlt⟩ (1 : Fin 2) * 1024 + 1024
    rw [e1]; omega

/-! ## The arrays after the run, and the run -/

theorem finalC (c : Dev nD) : (dats m 0 c).arrAt 9 cfg0.N = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushedC_eq m c t) cover9

theorem finalH (c : Dev nD) : (dats m 0 c).arrAt 8 cfg0.N = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 8 (Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushedH_eq m c t) cover8

/-- Every weakly fair execution of the idealized kernel's program terminates with the hidden result at `Gh` and the cell
    result at `Gc` of the argument arrays, the arguments unchanged. -/
theorem run : θ_run defs (onTc (τ := τ) (main (F := Ideal))) ⟨m, fun _ => 0, ρ⟩ fun r => ∀ c : Dev nD,
      r.2.mem ((c : Thread nD τ).loc main_v8_0) = Gh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v8_1) = Gc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (finalH m c), (h c).2.1.trans (finalC m c), (h c).2.2⟩)
    (Cert.KernelIdeal.Value.run_blocks m ρ)

end Cert.Lstm.Blocks

end
-- ==== Proof.lean ====
/-
  An LSTM cell whose new cell state is layer-normalised, as one fused kernel over 32 blocks of 128 batch rows, against
  the same cell written with whole-array operations.

  Both programs compute, for batch row b and column j,
      p      = x[b,:]·W_ihᵀ + h[b,:]·W_hhᵀ + b_ih + b_hh                       (4096 gate pre-activations)
      c'[j]  = c[b,j]·σ(p[1024+j]) + σ(p[j])·tanh(p[3072+j])
      c_out  = (c' − mean c')·rsqrt(var c' + ε)·γ + β,      h_out = σ(p[2048+j])·tanh(c_out[j]).
  They differ in three ways, none of which changes the value on the extended reals: the kernel rounds the matrix
  operands to bf16 (a change of float format is the identity there); it adds the two bias vectors to each other on the
  host before the call, where the reference adds each after its own product (addition is commutative and associative,
  also at the infinities); and it applies the logistic function as one operation, where the reference spells it
  1.0 / (1.0 + e^(−x)) (the same function by definition, the word of 1.0 denoting 1). The constants 1024.0 and ε are the
  same words in both programs and are never evaluated. The precondition is not used by the value claim.

  Proof/Spec.lean states the function, Proof/RefValue.lean reads the reference's run as that function,
  Proof/BodyValue.lean reads the kernel body's stored blocks entry by entry, Proof/Blocks.lean places the 32 blocks in
  the result arrays; here the five claims are assembled. The kernel's idealization rewrote nothing, so it is preserved
  trivially; the three frames are the generated runs.
-/
import proofs.«103422_j12713103196909_2_alg».proof.Defs
import proofs.«103422_j12713103196909_2_alg».proof.Proof.Gen.Kernel
import proofs.«103422_j12713103196909_2_alg».proof.Proof.Gen.Kernel.Skeleton
import proofs.«103422_j12713103196909_2_alg».proof.Proof.Gen.Kernel.Launch
import proofs.«103422_j12713103196909_2_alg».proof.Proof.Gen.Kernel.Points
import proofs.«103422_j12713103196909_2_alg».proof.Proof.Gen.Kernel.Frame
import proofs.«103422_j12713103196909_2_alg».proof.Proof.Gen.KernelIdeal
import proofs.«103422_j12713103196909_2_alg».proof.Proof.Gen.KernelIdeal.Skeleton
import proofs.«103422_j12713103196909_2_alg».proof.Proof.Gen.KernelIdeal.Launch
import proofs.«103422_j12713103196909_2_alg».proof.Proof.Gen.KernelIdeal.Points
import proofs.«103422_j12713103196909_2_alg».proof.Proof.Gen.KernelIdeal.Frame
import proofs.«103422_j12713103196909_2_alg».proof.Proof.Gen.ReferenceIdeal
import proofs.«103422_j12713103196909_2_alg».proof.Proof.Gen.Pre_finite_inputs
import proofs.«103422_j12713103196909_2_alg».proof.Proof.Gen.KernelIdeal.Value
import proofs.«103422_j12713103196909_2_alg».proof.Proof.Gen.ReferenceIdeal.Run
import proofs.«103422_j12713103196909_2_alg».proof.Proof.Gen.ReferenceIdeal.Read
import proofs.«103422_j12713103196909_2_alg».proof.Proof.Spec
import proofs.«103422_j12713103196909_2_alg».proof.Proof.RefValue
import proofs.«103422_j12713103196909_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the nine arguments both programs end with the hidden state at `Gh` and the normalised
    cell state at `Gc` of those arguments. -/
theorem algebraic : Cert.algebraic_KernelIdeal_ReferenceIdeal := by
  intro m ρ m' ρ' _ hagree
  refine ⟨fun c => Cert.Lstm.Gh (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Lstm.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Lstm.Blocks.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v62_eq, Cert.Lstm.Ref.result_h, a0, a1, a2, a3, a4, a5, a6, a7, a8]
  · rw [Cert.ReferenceIdeal.Read.val_main_v60_eq, Cert.Lstm.Ref.result_c, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
